-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : IVec S11008x4096 32) (main_arg4 : FVec F S11008 .f32) (main_arg5 : IVec S4096x11008 32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S8192x4096 : Shape := ⟨2, ![8192, 4096]⟩
abbrev S11008x1 : Shape := ⟨2, ![11008, 1]⟩
abbrev S4096x1 : Shape := ⟨2, ![4096, 1]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩
abbrev S1024x256 : Shape := ⟨2, ![1024, 256]⟩
abbrev S512x1024 : Shape := ⟨2, ![512, 1024]⟩

abbrev nBuf : Space → Nat
  | .hbm => 26
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S8192x4096, .f32⟩
  | .hbm, ⟨8, _⟩ => ⟨S8192x4096, .bf16⟩
  | .hbm, ⟨9, _⟩ => ⟨S11008x4096, .f32⟩
  | .hbm, ⟨10, _⟩ => ⟨S11008x1, .f32⟩
  | .hbm, ⟨11, _⟩ => ⟨S11008x4096, .f32⟩
  | .hbm, ⟨12, _⟩ => ⟨S11008x4096, .f32⟩
  | .hbm, ⟨13, _⟩ => ⟨S11008x4096, .bf16⟩
  | .hbm, ⟨14, _⟩ => ⟨S11008x4096, .f32⟩
  | .hbm, ⟨15, _⟩ => ⟨S11008x1, .f32⟩
  | .hbm, ⟨16, _⟩ => ⟨S11008x4096, .f32⟩
  | .hbm, ⟨17, _⟩ => ⟨S11008x4096, .f32⟩
  | .hbm, ⟨18, _⟩ => ⟨S11008x4096, .bf16⟩
  | .hbm, ⟨19, _⟩ => ⟨S4096x11008, .f32⟩
  | .hbm, ⟨20, _⟩ => ⟨S4096x1, .f32⟩
  | .hbm, ⟨21, _⟩ => ⟨S4096x11008, .f32⟩
  | .hbm, ⟨22, _⟩ => ⟨S4096x11008, .f32⟩
  | .hbm, ⟨23, _⟩ => ⟨S4096x11008, .bf16⟩
  | .hbm, ⟨24, _⟩ => ⟨S8192x4096, .f32⟩
  | .hbm, ⟨25, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S1024x256_0_0 : ∀ a, (![0, 0] : Fin 2 → Nat) a + S1024x256.size a ≤ S4096x256.size a
  h_S1024x256 : 0 < S1024x256.numel
  shapeCasts_S1024x256_S1024x256 : S1024x256.ShapeCasts S1024x256
  inb_S512x4096_S512x1024_0_0 : ∀ a, (![0, 0] : Fin 2 → Nat) a + S512x1024.size a ≤ S512x4096.size a
  h_S512x1024 : 0 < S512x1024.numel
  shapeCasts_S512x1024_S512x1024 : S512x1024.ShapeCasts S512x1024
  inb_S4096x256_S1024x256_1024_0 : ∀ a, (![1024, 0] : Fin 2 → Nat) a + S1024x256.size a ≤ S4096x256.size a
  inb_S512x4096_S512x1024_0_1024 : ∀ a, (![0, 1024] : Fin 2 → Nat) a + S512x1024.size a ≤ S512x4096.size a
  inb_S4096x256_S1024x256_2048_0 : ∀ a, (![2048, 0] : Fin 2 → Nat) a + S1024x256.size a ≤ S4096x256.size a
  inb_S512x4096_S512x1024_0_2048 : ∀ a, (![0, 2048] : Fin 2 → Nat) a + S512x1024.size a ≤ S512x4096.size a
  inb_S4096x256_S1024x256_3072_0 : ∀ a, (![3072, 0] : Fin 2 → Nat) a + S1024x256.size a ≤ S4096x256.size a
  inb_S512x4096_S512x1024_0_3072 : ∀ a, (![0, 3072] : Fin 2 → Nat) a + S512x1024.size a ≤ S512x4096.size a
  shapeCasts_S8192x4096_S4x2048x4096 : S8192x4096.ShapeCasts S4x2048x4096
  dot_S512x4096_S256x4096_S512x256_1_1_0_0_n_n_wf : DotDims.WF S512x4096 S256x4096 S512x256 [1] [1] [0] [0] [] []
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S4096x11008 : Shape := ⟨2, ![4096, 11008]⟩
abbrev S4096 : Shape := ⟨1, ![4096]⟩
abbrev S11008x1 : Shape := ⟨2, ![11008, 1]⟩
abbrev S4096x1 : Shape := ⟨2, ![4096, 1]⟩
abbrev S4x2048x11008 : Shape := ⟨3, ![4, 2048, 11008]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008x4096, .i32⟩
  | .hbm, ⟨4, _⟩ => ⟨S11008, .f32⟩
  | .hbm, ⟨5, _⟩ => ⟨S4096x11008, .i32⟩
  | .hbm, ⟨6, _⟩ => ⟨S4096, .f32⟩
  | .hbm, ⟨7, _⟩ => ⟨S11008x4096, .f32⟩
  | .hbm, ⟨8, _⟩ => ⟨S11008x1, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S11008x1, .f32⟩
  | .hbm, ⟨13, _⟩ => ⟨S11008x4096, .f32⟩
  | .hbm, ⟨14, _⟩ => ⟨S11008x4096, .f32⟩
  | .hbm, ⟨15, _⟩ => ⟨S4096x11008, .f32⟩
  | .hbm, ⟨16, _⟩ => ⟨S4096x1, .f32⟩
  | .hbm, ⟨17, _⟩ => ⟨S4096x11008, .f32⟩
  | .hbm, ⟨18, _⟩ => ⟨S4096x11008, .f32⟩
  | .hbm, ⟨19, _⟩ => ⟨S4x2048x11008, .f32⟩
  | .hbm, ⟨20, _⟩ => ⟨S4x2048x11008, .f32⟩
  | .hbm, ⟨21, _⟩ => ⟨S4x2048x11008, .f32⟩
  | .hbm, ⟨22, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Spec.lean ====
/-
  The gated MLP on dequantized weights, as one function of the arrays, element by element over the extended reals.

  With `X` the [8192, 4096] activations (the batch and sequence axes flattened), `GW`, `UW` the [11008, 4096] gate and
  up weights and `DW` the [4096, 11008] down weights, the output at row `r` and column `h` is the sum over the 11008
  intermediate channels `i` of   (X·GWᵀ)[r, i] * (X·UWᵀ)[r, i] * DW[h, i].
-/
import Idealize.ShloMosaic.Lib.ValueIdx

noncomputable section

namespace Cert.Mlp

open Idealize.ShloMosaic Idealize.ShloMosaic.ValueIdx

/-- Channel `i`'s contribution to the output at (r, h). -/
def term (X : (⟨2, ![8192, 4096]⟩ : Shape).Idx → EReal) (GW UW : (⟨2, ![11008, 4096]⟩ : Shape).Idx → EReal)
    (DW : (⟨2, ![4096, 11008]⟩ : Shape).Idx → EReal) (r : Fin 8192) (h : Fin 4096) (i : Fin 11008) : EReal :=
  (∑ k : Fin 4096, X (ix2 r k) * GW (ix2 i k)) * (∑ k : Fin 4096, X (ix2 r k) * UW (ix2 i k)) * DW (ix2 h i)

/-- The output at (r, h). -/
def outAt (X : (⟨2, ![8192, 4096]⟩ : Shape).Idx → EReal) (GW UW : (⟨2, ![11008, 4096]⟩ : Shape).Idx → EReal)
    (DW : (⟨2, ![4096, 11008]⟩ : Shape).Idx → EReal) (r : Fin 8192) (h : Fin 4096) : EReal :=
  ∑ i : Fin 11008, term X GW UW DW r h i

/-- The output array. -/
def out (X : (⟨2, ![8192, 4096]⟩ : Shape).Idx → EReal) (GW UW : (⟨2, ![11008, 4096]⟩ : Shape).Idx → EReal)
    (DW : (⟨2, ![4096, 11008]⟩ : Shape).Idx → EReal) : (⟨2, ![8192, 4096]⟩ : Shape).Idx → EReal :=
  fun y => outAt X GW UW DW (y 0) (y 1)

end Cert.Mlp

end
-- ==== Proof.TileProducts.lean ====
/-
  The two matrix products of one tile, element by element over the extended reals.

  Inside a grid step the kernel multiplies a [512, 4096] block of activations by the transposes of two
  [256, 4096] weight tiles (the gate and the up projection), multiplies the two results element by
  element, and multiplies that [512, 256] product by the transpose of a [1024, 256] piece of the down
  projection.  Both products contract the LAST axis of both operands into a zero accumulator, so read at
  (p, q) each is the plain sum over k of  l[p, k] * r[q, k].
-/
import proofs.«169609_j6665789243839_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## activations times a weight tile: [512,4096] x [256,4096] -> [512,256] -/

theorem up_lhs0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
theorem up_lhs1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem up_rhs0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
theorem up_rhs1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- Row `p` of the activations against row `j` of the weight tile. -/
theorem proj_apply (a : FVec Ideal S512x4096 .bf16) (b : FVec Ideal S256x4096 .bf16) (p : Fin 512) (j : Fin 256) :
    matmul dot_S512x4096_S256x4096_S512x256_1_1_0_0_n_n none a b (constant (F := Ideal) S512x256 .f32 0x00000000#32) (ix2 p j)
      = ∑ k : Fin 4096, a (ix2 p k) * b (ix2 j k) := by
  simp only [matmul]
  rw [Ideal.matmul_constant_zero_apply,
    ← Equiv.sum_comp (ValueIdx.contrEquiv1 dot_S512x4096_S256x4096_S512x256_1_1_0_0_n_n 4096 rfl rfl).symm]
  refine Finset.sum_congr rfl fun k _ => ?_
  have hk := ValueIdx.contrEquiv1_symm_val dot_S512x4096_S256x4096_S512x256_1_1_0_0_n_n 4096 rfl rfl k
  have el : dot_S512x4096_S256x4096_S512x256_1_1_0_0_n_n.lhsIdx (ix2 p j)
      ((ValueIdx.contrEquiv1 dot_S512x4096_S256x4096_S512x256_1_1_0_0_n_n 4096 rfl rfl).symm k) = ix2 p k :=
    funext fun a => Fin.ext (by
      match a with
      | ⟨0, _⟩ => exact up_lhs0 _ _
      | ⟨1, _⟩ => exact (up_lhs1 _ _).trans hk)
  have er : dot_S512x4096_S256x4096_S512x256_1_1_0_0_n_n.rhsIdx (ix2 p j)
      ((ValueIdx.contrEquiv1 dot_S512x4096_S256x4096_S512x256_1_1_0_0_n_n 4096 rfl rfl).symm k) = ix2 j k :=
    funext fun a => Fin.ext (by
      match a with
      | ⟨0, _⟩ => exact up_rhs0 _ _
      | ⟨1, _⟩ => exact (up_rhs1 _ _).trans hk)
  rw [el, er]

/-! ## the gated product times a piece of the down projection: [512,256] x [1024,256] -> [512,1024] -/

theorem dn_lhs0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl
theorem dn_lhs1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem dn_rhs0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl
theorem dn_rhs1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- Row `p` of the gated product against row `q` of the down-projection piece. -/
theorem down_apply (a : FVec Ideal S512x256 .bf16) (b : FVec Ideal S1024x256 .bf16) (p : Fin 512) (q : Fin 1024) :
    matmul dot_S512x256_S1024x256_S512x1024_1_1_0_0_n_n none a b (constant (F := Ideal) S512x1024 .f32 0x00000000#32) (ix2 p q)
      = ∑ j : Fin 256, a (ix2 p j) * b (ix2 q j) := by
  simp only [matmul]
  rw [Ideal.matmul_constant_zero_apply,
    ← Equiv.sum_comp (ValueIdx.contrEquiv1 dot_S512x256_S1024x256_S512x1024_1_1_0_0_n_n 256 rfl rfl).symm]
  refine Finset.sum_congr rfl fun k _ => ?_
  have hk := ValueIdx.contrEquiv1_symm_val dot_S512x256_S1024x256_S512x1024_1_1_0_0_n_n 256 rfl rfl k
  have el : dot_S512x256_S1024x256_S512x1024_1_1_0_0_n_n.lhsIdx (ix2 p q)
      ((ValueIdx.contrEquiv1 dot_S512x256_S1024x256_S512x1024_1_1_0_0_n_n 256 rfl rfl).symm k) = ix2 p k :=
    funext fun a => Fin.ext (by
      match a with
      | ⟨0, _⟩ => exact dn_lhs0 _ _
      | ⟨1, _⟩ => exact (dn_lhs1 _ _).trans hk)
  have er : dot_S512x256_S1024x256_S512x1024_1_1_0_0_n_n.rhsIdx (ix2 p q)
      ((ValueIdx.contrEquiv1 dot_S512x256_S1024x256_S512x1024_1_1_0_0_n_n 256 rfl rfl).symm k) = ix2 q k :=
    funext fun a => Fin.ext (by
      match a with
      | ⟨0, _⟩ => exact dn_rhs0 _ _
      | ⟨1, _⟩ => exact (dn_rhs1 _ _).trans hk)
  rw [el, er]

/-! ## the payloads -/

/-- The gated product of a tile at (p, j): (x · gateᵀ)[p, j] * (x · upᵀ)[p, j]; the narrowing to bf16 is the identity. -/
def gated (x : Vec Ideal S512x4096 .bf16) (g u : Vec Ideal S256x4096 .bf16) (p : Fin 512) (j : Fin 256) : EReal :=
  (∑ k : Fin 4096, x (ix2 p k) * g (ix2 j k)) * (∑ k : Fin 4096, x (ix2 p k) * u (ix2 j k))

theorem pay4_apply (x : Vec Ideal S512x4096 .bf16) (g u : Vec Ideal S256x4096 .bf16) (p : Fin 512) (j : Fin 256) :
    k0_pay4 (F := Ideal) x g u (ix2 p j) = gated x g u p j := by
  unfold k0_pay4 gated
  simp only [shapeCast_self]
  exact congrArg₂ (· * ·) (proj_apply x g p j) (proj_apply x u p j)

/-- One piece of the down projection added to what the output block held: at (p, q) the old value plus the sum over
    the tile's 256 channels of the gated product times the down weight. -/
def piece (gu : FVec Ideal S512x256 .bf16) (d : FVec Ideal S1024x256 .bf16) (acc : Vec Ideal S512x1024 .f32) : FVec Ideal S512x1024 .f32 :=
  addf acc (matmul dot_S512x256_S1024x256_S512x1024_1_1_0_0_n_n none gu d (constant (F := Ideal) S512x1024 .f32 0x00000000#32))

theorem piece_apply (gu : FVec Ideal S512x256 .bf16) (d : FVec Ideal S1024x256 .bf16) (acc : Vec Ideal S512x1024 .f32)
    (p : Fin 512) (q : Fin 1024) :
    piece gu d acc (ix2 p q) = acc (ix2 p q) + ∑ j : Fin 256, gu (ix2 p j) * d (ix2 q j) := by
  unfold piece
  exact congrArg (acc (ix2 p q) + ·) (down_apply gu d p q)

theorem pay5_eq (v3 : Vec Ideal S512x4096 .bf16) (v5 v7 : Vec Ideal S256x4096 .bf16) (v13 : Vec Ideal S1024x256 .bf16)
    (v16 : Vec Ideal S512x1024 .f32) : k0_pay5 (F := Ideal) v3 v5 v7 v13 v16 = piece (k0_pay4 v3 v5 v7) v13 v16 := by
  unfold k0_pay5 piece
  simp only [shapeCast_self]
theorem pay6_eq (v3 : Vec Ideal S512x4096 .bf16) (v5 v7 : Vec Ideal S256x4096 .bf16) (v20 : Vec Ideal S1024x256 .bf16)
    (v23 : Vec Ideal S512x1024 .f32) : k0_pay6 (F := Ideal) v3 v5 v7 v20 v23 = piece (k0_pay4 v3 v5 v7) v20 v23 := by
  unfold k0_pay6 piece
  simp only [shapeCast_self]
theorem pay1_eq (v12 : FVec Ideal S512x256 .bf16) (v27 : Vec Ideal S1024x256 .bf16)
    (v30 : Vec Ideal S512x1024 .f32) : k0_pay1 (F := Ideal) v12 (k0_pay7 v27) v30 = piece v12 v27 v30 := by
  unfold k0_pay1 k0_pay7 piece
  simp only [shapeCast_self]
theorem pay2_eq (v12 : FVec Ideal S512x256 .bf16) (v34 : Vec Ideal S1024x256 .bf16)
    (v37 : Vec Ideal S512x1024 .f32) : k0_pay2 (F := Ideal) v12 v34 v37 = piece v12 v34 v37 := by
  unfold k0_pay2 piece
  simp only [shapeCast_self]

end Cert.KernelIdeal.Tile

end
-- ==== Proof.StepValue.lean ====
/-
  What one grid step leaves in the output block, as one function of the blocks it reads.

  A step reads a [512, 4096] block `x` of activations, the [256, 4096] tiles `g` and `u` of the gate and up
  weights, the [4096, 256] tile `d` of the down weights, and what the output block held (`old`); it leaves, at
  (p, q),   old[p, q] + sum over the tile's 256 channels j of  (x·gᵀ)[p, j] * (x·uᵀ)[p, j] * d[q, j].
  The body writes this as four column pieces of width 1024, each a read-modify-write of its own columns, so the
  pieces never read one another; at the first step of a row of the grid the block is first filled with zeros,
  and the four pieces then read those zeros.
-/
import proofs.«169609_j6665789243839_2_alg».proof.Proof.TileProducts
import proofs.«169609_j6665789243839_2_alg».proof.Proof.Gen.KernelIdeal.Frame
import Idealize.ShloMosaic.Lib.Pipeline.CanonAppend
import Idealize.ShloMosaic.Lib.Tactic

noncomputable section

namespace Cert.KernelIdeal.Tile

open Cert.KernelIdeal Cert.KernelIdeal.Gen Idealize.ShloMosaic Idealize.ShloMosaic.TcCoe Idealize.ShloMosaic.ValueIdx
open Idealize.ShloMosaic.Tactic

theorem hz : (![0, 0] : Fin 2 → Nat) = fun _ => 0 := funext fun a => by fin_cases a <;> rfl

/-- The block after a step, at row `p` and column `q`. -/
def stepAt (x : Vec Ideal S512x4096 .bf16) (g u : Vec Ideal S256x4096 .bf16) (d : Vec Ideal S4096x256 .bf16)
    (old : Vec Ideal S512x4096 .f32) (p : Fin 512) (q : Fin 4096) : EReal :=
  old (ix2 p q) + ∑ j : Fin 256, gated x g u p j * d (ix2 q j)

/-- The block after a step. -/
def step (x : Vec Ideal S512x4096 .bf16) (g u : Vec Ideal S256x4096 .bf16) (d : Vec Ideal S4096x256 .bf16)
    (old : Vec Ideal S512x4096 .f32) : Vec Ideal S512x4096 .f32 :=
  fun y => stepAt x g u d old (y 0) (y 1)

/-- The piece for columns `o … o + 1023`: computed from rows `o …` of the down tile and from the same columns of
    the old block, it is the restriction of `step` to those columns. -/
theorem piece_agrees (o : Nat) (inbR : ∀ a, (![0, o] : Fin 2 → Nat) a + S512x1024.size a ≤ S512x4096.size a)
    (inbD : ∀ a, (![o, 0] : Fin 2 → Nat) a + S1024x256.size a ≤ S4096x256.size a)
    (x : Vec Ideal S512x4096 .bf16) (g u : Vec Ideal S256x4096 .bf16) (d : Vec Ideal S4096x256 .bf16)
    (old : Vec Ideal S512x4096 .f32) (z : S512x1024.Idx) :
    piece (k0_pay4 x g u) (View.ld d (Rect.unit (s := S4096x256) ![o, 0] S1024x256.size inbD))
        (View.ld old (Rect.unit (s := S512x4096) ![0, o] S512x1024.size inbR)) z
      = step x g u d old ((Rect.unit (s := S512x4096) ![0, o] S512x1024.size inbR).emb z) := by
  obtain ⟨p, q, rfl⟩ : ∃ (p : Fin 512) (q : Fin 1024), z = ix2 p q := ⟨z 0, z 1, eq_ix2 z⟩
  have hq : o + q.val < 4096 := by
    have h : o + 1024 ≤ 4096 := inbR 1
    have := q.isLt; omega
  have e0 : ((Rect.unit (s := S512x4096) ![0, o] S512x1024.size inbR).emb (ix2 p q)) 0 = p := Fin.ext (by
    show 0 + 1 * p.val = p.val; omega)
  have e1 : ((Rect.unit (s := S512x4096) ![0, o] S512x1024.size inbR).emb (ix2 p q)) 1 = (⟨o + q.val, hq⟩ : Fin 4096) := Fin.ext (by
    show o + 1 * q.val = o + q.val; omega)
  have eR : (Rect.unit (s := S512x4096) ![0, o] S512x1024.size inbR).idx (ix2 p q) = ix2 p (⟨o + q.val, hq⟩ : Fin 4096) :=
    funext fun a => Fin.ext (by
      match a with
      | ⟨0, _⟩ => show 0 + 1 * p.val = p.val; omega
      | ⟨1, _⟩ => show o + 1 * q.val = o + q.val; omega)
  have eD : ∀ j : Fin 256, (Rect.unit (s := S4096x256) ![o, 0] S1024x256.size inbD).idx (ix2 q j) = ix2 (⟨o + q.val, hq⟩ : Fin 4096) j :=
    fun j => funext fun a => Fin.ext (by
      match a with
      | ⟨0, _⟩ => show o + 1 * q.val = o + q.val; omega
      | ⟨1, _⟩ => show 0 + 1 * j.val = j.val; omega)
  rw [piece_apply]
  unfold step
  rw [e0, e1]
  unfold stepAt
  show old ((Rect.unit (s := S512x4096) ![0, o] S512x1024.size inbR).idx (ix2 p q))
      + ∑ j : Fin 256, k0_pay4 x g u (ix2 p j) * d ((Rect.unit (s := S4096x256) ![o, 0] S1024x256.size inbD).idx (ix2 q j)) = _
  rw [eR]
  refine congrArg (old (ix2 p (⟨o + q.val, hq⟩ : Fin 4096)) + ·) (Finset.sum_congr rfl fun j _ => ?_)
  rw [eD j, pay4_apply]

/-- A column piece holds every index whose column lies in its range. -/
theorem mem_cols (o : Nat) (inbR : ∀ a, (![0, o] : Fin 2 → Nat) a + S512x1024.size a ≤ S512x4096.size a)
    (y : S512x4096.Idx) (h1 : o ≤ (y 1).val) (h2 : (y 1).val < o + 1024) :
    y ∈ (Rect.unit (s := S512x4096) ![0, o] S512x1024.size inbR).set := by
  rw [Rect.mem_set_unit]
  intro a
  match a with
  | ⟨0, _⟩ => exact ⟨Nat.zero_le _, by show (y 0).val < 0 + 512; have := idx2_lt0 y; omega⟩
  | ⟨1, _⟩ => exact ⟨h1, h2⟩

/-- A load of columns `o' …` does not see an earlier piece that wrote columns `o … o + 1023` to its left. -/
theorem readCov_skip {sig : RefSig} {κ : Kind} {sp : Space} (v : View sig κ sp S512x4096 .f32) (o o' : Nat)
    (inb : ∀ a, (![0, o] : Fin 2 → Nat) a + S512x1024.size a ≤ S512x4096.size a)
    (inb' : ∀ a, (![0, o'] : Fin 2 → Nat) a + S512x1024.size a ≤ S512x4096.size a)
    (w : S512x1024.Idx → Elt Ideal .f32) (L : List (View.Piece (Elt Ideal) S512x4096 .f32)) (h : o + 1024 ≤ o') :
    v.readCov (⟨Rect.unit (s := S512x4096) ![0, o] S512x1024.size inb, w⟩ :: L)
        (Rect.unit (s := S512x4096) ![0, o'] S512x1024.size inb').toLoadRect
      = v.readCov L (Rect.unit (s := S512x4096) ![0, o'] S512x1024.size inb').toLoadRect :=
  View.readCov_cons_of_disjoint v _ L _ (Rect.unit_disjoint (inb := inb) (inb' := inb') 1 (Or.inl h))

/-- A load of columns `o' …` after the block was filled whole reads the fill there. -/
theorem readCov_fill {sig : RefSig} {κ : Kind} {sp : Space} (v : View sig κ sp S512x4096 .f32) (o' : Nat)
    (inb0 : ∀ a, (![0, 0] : Fin 2 → Nat) a + S512x4096.size a ≤ S512x4096.size a)
    (inb' : ∀ a, (![0, o'] : Fin 2 → Nat) a + S512x1024.size a ≤ S512x4096.size a)
    (w : S512x4096.Idx → Elt Ideal .f32) :
    v.readCov [⟨Rect.unit (s := S512x4096) ![0, 0] S512x4096.size inb0, w⟩]
        (Rect.unit (s := S512x4096) ![0, o'] S512x1024.size inb').toLoadRect
      = View.ld w (Rect.unit (s := S512x4096) ![0, o'] S512x1024.size inb') := by
  rw [View.readCov_eq_canon_ld _ _ _ (fun y => ⟨_, List.mem_singleton_self _, View.mem_set_unit_zero hz inb0 y⟩),
    View.canon_unit_zero hz]

/-- A step that finds the block at `xo` (every grid point but the first of its row). -/
theorem out_B (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : ¬cond0_0 i)
    (x0 : Vec Ideal S512x4096 .bf16) (x1 : Vec Ideal S256x4096 .bf16) (x2 : Vec Ideal S256x4096 .bf16) (x3 : Vec Ideal S4096x256 .bf16) (xo4 : Vec Ideal S512x4096 .f32) :
    out0_B_4 (F := Ideal) c i arg2 harg2 arg3 harg3 arg4 harg4 arg5 harg5 arg6 harg6 hc0 x0 x1 x2 x3 xo4 = step x0 x1 x2 x3 xo4 := by
  unfold out0_B_4
  rw [View.read_writes_junk_eq_canon]
  funext y
  refine View.canon_apply_of_pieces (step x0 x1 x2 x3 xo4) _ ?_ y
    (cover0_B_4 c i arg2 harg2 arg3 harg3 arg4 harg4 arg5 harg5 arg6 harg6 hc0 x0 x1 x2 x3 xo4 y)
  unfold kernelRun0_B
  dsimp only
  sl_unfold_words
  simp only [View.readAt_eq_ld, harg2.read_unread, harg3.read_unread, harg4.read_unread, harg5.read_unread, harg6.read_unread,
    View.ld_unit_zero (S := S512x4096) hz, View.ld_unit_zero (S := S256x4096) hz, pay5_eq, pay6_eq, pay1_eq, pay2_eq]
  intro pc hpc z
  simp only [List.mem_cons, List.mem_nil_iff, or_false] at hpc
  rcases hpc with rfl | rfl | rfl | rfl
  · exact piece_agrees 3072 _ _ x0 x1 x2 x3 xo4 z
  · exact piece_agrees 2048 _ _ x0 x1 x2 x3 xo4 z
  · exact piece_agrees 1024 _ _ x0 x1 x2 x3 xo4 z
  · exact piece_agrees 0 _ _ x0 x1 x2 x3 xo4 z

/-- The first step of a row of the grid: the block is filled with the zero word, and the four pieces read that fill. -/
theorem out_A (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : cond0_0 i)
    (x0 : Vec Ideal S512x4096 .bf16) (x1 : Vec Ideal S256x4096 .bf16) (x2 : Vec Ideal S256x4096 .bf16) (x3 : Vec Ideal S4096x256 .bf16) :
    out0_A_4 (F := Ideal) c i arg2 harg2 arg3 harg3 arg4 harg4 arg5 harg5 arg6 harg6 hc0 x0 x1 x2 x3
      = step x0 x1 x2 x3 (k0_pay3 (F := Ideal)) := by
  unfold out0_A_4
  rw [View.read_writes_junk_eq_canon]
  funext y
  unfold kernelRun0_A
  dsimp only
  sl_unfold_words
  simp only [View.readAt_eq_ld, harg2.read_unread, harg3.read_unread, harg4.read_unread, harg5.read_unread,
    View.ld_unit_zero (S := S512x4096) hz, View.ld_unit_zero (S := S256x4096) hz,
    readCov_skip _ 0 1024 _ _ _ _ (by decide), readCov_skip _ 0 2048 _ _ _ _ (by decide), readCov_skip _ 0 3072 _ _ _ _ (by decide),
    readCov_skip _ 1024 2048 _ _ _ _ (by decide), readCov_skip _ 1024 3072 _ _ _ _ (by decide),
    readCov_skip _ 2048 3072 _ _ _ _ (by decide),
    pay5_eq, pay6_eq, pay1_eq, pay2_eq]
  rw [readCov_fill arg6.view 3072, readCov_fill arg6.view 2048, readCov_fill arg6.view 1024, readCov_fill arg6.view 0]
  show View.canon ([_, _, _, _] ++ [_]) y = _
  refine View.canon_append_of_pieces (step x0 x1 x2 x3 (k0_pay3 (F := Ideal))) _ _ ?_ y ?_
  · intro pc hpc z
    simp only [List.mem_cons, List.mem_nil_iff, or_false] at hpc
    rcases hpc with rfl | rfl | rfl | rfl
    · exact piece_agrees 3072 _ _ x0 x1 x2 x3 _ z
    · exact piece_agrees 2048 _ _ x0 x1 x2 x3 _ z
    · exact piece_agrees 1024 _ _ x0 x1 x2 x3 _ z
    · exact piece_agrees 0 _ _ x0 x1 x2 x3 _ z
  · have hy : (y 1).val < 4096 := idx2_lt1 y
    by_cases h3 : 3072 ≤ (y 1).val
    · exact ⟨_, List.mem_cons_self, mem_cols 3072 Facts₀.inb_S512x4096_S512x1024_0_3072 y h3 (by omega)⟩
    by_cases h2 : 2048 ≤ (y 1).val
    · exact ⟨_, List.mem_cons_of_mem _ List.mem_cons_self, mem_cols 2048 Facts₀.inb_S512x4096_S512x1024_0_2048 y h2 (by omega)⟩
    by_cases h1 : 1024 ≤ (y 1).val
    · exact ⟨_, List.mem_cons_of_mem _ (List.mem_cons_of_mem _ List.mem_cons_self), mem_cols 1024 Facts₀.inb_S512x4096_S512x1024_0_1024 y h1 (by omega)⟩
    · exact ⟨_, List.mem_cons_of_mem _ (List.mem_cons_of_mem _ (List.mem_cons_of_mem _ List.mem_cons_self)),
        mem_cols 0 Facts₀.inb_S512x4096_S512x1024_0_0 y (Nat.zero_le _) (by omega)⟩

/-- The fill is the extended real zero. -/
theorem fill_apply (y : S512x4096.Idx) : k0_pay3 (F := Ideal) y = 0 := by
  show Ideal.ofBits .f32 0x00000000#32 = 0
  exact Ideal.ofBits_zero_f32

end Cert.KernelIdeal.Tile

end
-- ==== Proof.BlockReads.lean ====
/-
  Where the blocks of a grid step sit in their arrays.

  The grid has 16 x 43 points; point `t` is row block `t / 43` of the activations and of the output, and tile
  `t % 43` of the intermediate axis: the step reads rows 512·(t/43) … of the activations, rows 256·(t%43) … of
  the gate and up weights, and columns 256·(t%43) … of the down weights.
-/
import proofs.«169609_j6665789243839_2_alg».proof.Proof.Gen.KernelIdeal.Frame
import Idealize.ShloMosaic.Lib.ValueIdx

noncomputable section

namespace Cert.KernelIdeal.Reads

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The printed index maps, decided once over the grid. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = 0 :=
  (by decide +kernel : ∀ t : Fin grid0.N, _)

/-- Row `p` of point `t`'s block of activations, as a row of the whole array. -/
def rowOf (t : Fin cfg0.N) (p : Fin 512) : Fin 8192 :=
  ⟨512 * (t.val / 43) + p.val, by
    have h := lt_of_lt_of_eq t.isLt (show cfg0.N = 688 from N_0); have := p.isLt; omega⟩

/-- Channel `j` of point `t`'s tile, as a channel of the whole intermediate axis. -/
def chanOf (t : Fin cfg0.N) (j : Fin 256) : Fin 11008 :=
  ⟨256 * (t.val % 43) + j.val, by
    have : t.val % 43 < 43 := Nat.mod_lt _ (by decide); have := j.isLt; omega⟩

theorem x_block (c : Dev nD) (t : Fin cfg0.N) (p : Fin 512) (k : Fin 4096) :
    (iblk m c 0 t : Vec F S512x4096 .bf16) (ix2 p k) = (V m c main_v1 : Vec F S8192x4096 .bf16) (ix2 (rowOf t p) k) := by
  obtain ⟨e0, e1, -⟩ := idx_facts t
  show V m c main_v1 (((cfg0.win 0).blk t).view.emb (ix2 p k)) = _
  refine congrArg (V m c main_v1) (funext fun a => Fin.ext ?_)
  match a with
  | ⟨0, _⟩ => show win0_0.index t (0 : Fin 2) * 512 + 1 * p.val = 512 * (t.val / 43) + p.val; rw [e0]; omega
  | ⟨1, _⟩ => show win0_0.index t (1 : Fin 2) * 4096 + 1 * k.val = k.val; rw [e1]; omega

theorem g_block (c : Dev nD) (t : Fin cfg0.N) (j : Fin 256) (k : Fin 4096) :
    (iblk m c 1 t : Vec F S256x4096 .bf16) (ix2 j k) = (V m c main_v6 : Vec F S11008x4096 .bf16) (ix2 (chanOf t j) k) := by
  obtain ⟨-, -, e0, e1, -⟩ := idx_facts t
  show V m c main_v6 (((cfg0.win 1).blk t).view.emb (ix2 j k)) = _
  refine congrArg (V m c main_v6) (funext fun a => Fin.ext ?_)
  match a with
  | ⟨0, _⟩ => show win0_1.index t (0 : Fin 2) * 256 + 1 * j.val = 256 * (t.val % 43) + j.val; rw [e0]; omega
  | ⟨1, _⟩ => show win0_1.index t (1 : Fin 2) * 4096 + 1 * k.val = k.val; rw [e1]; omega

theorem u_block (c : Dev nD) (t : Fin cfg0.N) (j : Fin 256) (k : Fin 4096) :
    (iblk m c 2 t : Vec F S256x4096 .bf16) (ix2 j k) = (V m c main_v11 : Vec F S11008x4096 .bf16) (ix2 (chanOf t j) k) := by
  obtain ⟨-, -, -, -, e0, e1, -⟩ := idx_facts t
  show V m c main_v11 (((cfg0.win 2).blk t).view.emb (ix2 j k)) = _
  refine congrArg (V m c main_v11) (funext fun a => Fin.ext ?_)
  match a with
  | ⟨0, _⟩ => show win0_2.index t (0 : Fin 2) * 256 + 1 * j.val = 256 * (t.val % 43) + j.val; rw [e0]; omega
  | ⟨1, _⟩ => show win0_2.index t (1 : Fin 2) * 4096 + 1 * k.val = k.val; rw [e1]; omega

theorem d_block (c : Dev nD) (t : Fin cfg0.N) (q : Fin 4096) (j : Fin 256) :
    (iblk m c 3 t : Vec F S4096x256 .bf16) (ix2 q j) = (V m c main_v16 : Vec F S4096x11008 .bf16) (ix2 q (chanOf t j)) := by
  obtain ⟨-, -, -, -, -, -, e0, e1, -⟩ := idx_facts t
  show V m c main_v16 (((cfg0.win 3).blk t).view.emb (ix2 q j)) = _
  refine congrArg (V m c main_v16) (funext fun a => Fin.ext ?_)
  match a with
  | ⟨0, _⟩ => show win0_3.index t (0 : Fin 2) * 4096 + 1 * q.val = q.val; rw [e0]; omega
  | ⟨1, _⟩ => show win0_3.index t (1 : Fin 2) * 256 + 1 * j.val = 256 * (t.val % 43) + j.val; rw [e1]; omega

/-- Where element (p, q) of point `t`'s output block sits in the result array. -/
theorem o_block (t : Fin cfg0.N) (p : Fin 512) (q : Fin 4096) :
    ((cfg0.win 4).blk t).view.emb (ix2 p q) = (ix2 (rowOf t p) q : S8192x4096.Idx) := by
  obtain ⟨-, -, -, -, -, -, -, -, e0, e1⟩ := idx_facts t
  refine funext fun a => Fin.ext ?_
  match a with
  | ⟨0, _⟩ => show win0_4.index t (0 : Fin 2) * 512 + 1 * p.val = 512 * (t.val / 43) + p.val; rw [e0]; omega
  | ⟨1, _⟩ => show win0_4.index t (1 : Fin 2) * 4096 + 1 * q.val = q.val; rw [e1]; omega

/-- An index of the result array is in point `t`'s block iff each coordinate is in the block's range. -/
theorem mem_oblk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v17).slice (win0_4.rect t)).set ↔ _
  rw [View.set_slice_whole, Rect.mem_set_unit]
  exact Iff.rfl

/-- The last point of each row of the grid writes its block back, and those sixteen blocks tile the array. -/
theorem o_cover (i : S8192x4096.Idx) :
    ∃ t : Fin cfg0.N, (cfg0.win 4).flush t = true ∧ i ∈ ((cfg0.win 4).blk t).view.set := by
  have hi0 : (i 0).val < 8192 := idx2_lt0 i
  have hi1 : (i 1).val < 4096 := idx2_lt1 i
  have hN : cfg0.N = 688 := N_0
  let t : Fin cfg0.N := ⟨43 * ((i 0).val / 512) + 42, by rw [hN]; omega⟩
  have ht : t.val = 43 * ((i 0).val / 512) + 42 := rfl
  obtain ⟨-, -, -, -, -, -, -, -, e0, e1⟩ := idx_facts t
  refine ⟨t, (flush0_4 t).mpr (by rw [ht]; omega), ?_⟩
  rw [mem_oblk]
  intro a
  match a with
  | ⟨0, _⟩ =>
    show win0_4.index t (0 : Fin 2) * 512 ≤ (i 0).val ∧ (i 0).val < win0_4.index t (0 : Fin 2) * 512 + 512
    rw [e0, ht]; omega
  | ⟨1, _⟩ =>
    show win0_4.index t (1 : Fin 2) * 4096 ≤ (i 1).val ∧ (i 1).val < win0_4.index t (1 : Fin 2) * 4096 + 4096
    rw [e1]; omega

end Cert.KernelIdeal.Reads

end
-- ==== Proof.LibPartialSums.lean ====
/-
  Partial sums of a finite sequence, tile by tile, in any commutative additive monoid (and the squared difference
  of two extended reals, the term summed here).  A finite sequence `a : Fin N → M` is continued by zeros to all
  naturals, so that its partial sums can be taken over `Finset.range`; the partial sum over the first `j + 1` tiles
  of width `w` is the partial sum over the first `j` tiles plus the sum over tile `j`, the partial sum over no tile
  is zero, and the partial sum over all `N` terms is the sum of the sequence.  This is the arithmetic of an
  accumulator that a grid carries across the steps of a reduction axis.
-/
import Mathlib.Algebra.BigOperators.Fin
import Mathlib.Algebra.BigOperators.Intervals
import Mathlib.Data.EReal.Operations

open Finset

namespace Cert.SumLaws

variable {M : Type*} [AddCommMonoid M]

/-- The squared difference of two extended reals. -/
noncomputable def sqd (a b : EReal) : EReal := (a - b) * (a - b)

/-- A finite sequence continued by zeros. -/
def padded {N : ℕ} (a : Fin N → M) (q : ℕ) : M := if h : q < N then a ⟨q, h⟩ else 0

theorem padded_of_lt {N : ℕ} (a : Fin N → M) {q : ℕ} (h : q < N) : padded a q = a ⟨q, h⟩ := dif_pos h

/-- The partial sum over everything is the sum. -/
theorem sum_range_padded {N : ℕ} (a : Fin N → M) : ∑ q ∈ range N, padded a q = ∑ q : Fin N, a q := by
  rw [Finset.sum_range]
  exact Finset.sum_congr rfl fun q _ => padded_of_lt a q.isLt

/-- One more tile: the terms `w·j, …, w·j + w - 1` are added. -/
theorem sum_range_tile_succ {N : ℕ} (a : Fin N → M) (w j : ℕ) (h : w * (j + 1) ≤ N) :
    ∑ q ∈ range (w * (j + 1)), padded a q
      = ∑ q ∈ range (w * j), padded a q
        + ∑ k : Fin w, a ⟨w * j + k.val, lt_of_lt_of_le (by rw [Nat.mul_succ]; exact Nat.add_lt_add_left k.isLt _) h⟩ := by
  refine (congrArg (fun n => ∑ q ∈ range n, padded a q) (Nat.mul_succ w j)).trans ?_
  rw [Finset.sum_range_add, Finset.sum_range (fun x => padded a (w * j + x))]
  exact congrArg _ (Finset.sum_congr rfl fun k _ => padded_of_lt a _)

/-- No tile yet: the empty sum. -/
theorem sum_range_tile_zero {N : ℕ} (a : Fin N → M) (w : ℕ) : ∑ q ∈ range (w * 0), padded a q = 0 := by
  rw [Nat.mul_zero, Finset.range_zero, Finset.sum_empty]

/-- The same when the tile count is known to be zero. -/
theorem sum_range_tile_of_eq_zero {N : ℕ} (a : Fin N → M) (w j : ℕ) (hj : j = 0) :
    ∑ q ∈ range (w * j), padded a q = 0 := by
  subst hj; exact sum_range_tile_zero a w

end Cert.SumLaws
-- ==== Proof.Accumulate.lean ====
/-
  The output block across a row of the grid: a running sum over the tiles of the intermediate axis.

  After the step at point `n` (row block n / 43, tile n % 43) the staged output block holds, at (p, q), the sum of
  the channels' contributions over the first (n % 43 + 1) tiles — 256·(n % 43 + 1) channels.  The first step of a row
  starts from the zero fill, every later one adds its tile to what the step before left.  After the last tile of a
  row the block holds the sum over all 11008 channels and is written back; the sixteen written blocks tile the array.
-/
import proofs.«169609_j6665789243839_2_alg».proof.Proof.Spec
import proofs.«169609_j6665789243839_2_alg».proof.Proof.StepValue
import proofs.«169609_j6665789243839_2_alg».proof.Proof.BlockReads
import proofs.«169609_j6665789243839_2_alg».proof.Proof.LibPartialSums
import Idealize.ShloMosaic.Lib.Pipeline.Value

noncomputable section

namespace Cert.KernelIdeal.Acc

open Cert.KernelIdeal Cert.KernelIdeal.Gen Cert.KernelIdeal.Tile Cert.KernelIdeal.Reads Cert.Mlp Cert.SumLaws
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- A tile's 256 products, written over the whole arrays. -/
theorem tile_sum (X : S8192x4096.Idx → EReal) (GW UW : S11008x4096.Idx → EReal) (DW : S4096x11008.Idx → EReal)
    (x0 : Vec Ideal S512x4096 .bf16) (x1 x2 : Vec Ideal S256x4096 .bf16) (x3 : Vec Ideal S4096x256 .bf16)
    (r : Fin 8192) (ch : Fin 256 → Fin 11008) (p : Fin 512) (q : Fin 4096)
    (h0 : ∀ k, x0 (ix2 p k) = X (ix2 r k)) (h1 : ∀ j k, x1 (ix2 j k) = GW (ix2 (ch j) k))
    (h2 : ∀ j k, x2 (ix2 j k) = UW (ix2 (ch j) k)) (h3 : ∀ j, x3 (ix2 q j) = DW (ix2 q (ch j))) :
    ∑ j : Fin 256, gated x0 x1 x2 p j * x3 (ix2 q j) = ∑ j : Fin 256, term X GW UW DW r q (ch j) := by
  refine Finset.sum_congr rfl fun j _ => ?_
  unfold gated term
  rw [h3 j]
  simp only [h0, h1, h2]

/-- The running sum after the step at position `n` of the grid. -/
def partialOut (a : Fin 11008 → EReal) (n : ℕ) : EReal := ∑ i ∈ Finset.range (256 * (n % 43 + 1)), padded a i

theorem partialOut_eq (a : Fin 11008 → EReal) (n : ℕ) :
    partialOut a n = (∑ i ∈ Finset.range (256 * (n % 43)), padded a i)
      + ∑ k : Fin 256, a ⟨256 * (n % 43) + k.val, by
          have : n % 43 < 43 := Nat.mod_lt _ (by decide); have := k.isLt; omega⟩ :=
  sum_range_tile_succ a 256 (n % 43) (by have : n % 43 < 43 := Nat.mod_lt _ (by decide); omega)

/-- The tile of point `t` added to `old`, at (p, q), over the arrays as the region finds them. -/
theorem step_at (c : Dev nD) (t : Fin cfg0.N) (old : Vec Ideal S512x4096 .f32) (p : Fin 512) (q : Fin 4096) :
    step (iblk m c 0 t) (iblk m c 1 t) (iblk m c 2 t) (iblk m c 3 t) old (ix2 p q)
      = old (ix2 p q) + ∑ j : Fin 256, term (V m c main_v1) (V m c main_v6) (V m c main_v11) (V m c main_v16) (rowOf t p) q (chanOf t j) := by
  show stepAt (iblk m c 0 t) (iblk m c 1 t) (iblk m c 2 t) (iblk m c 3 t) old p q = _
  unfold stepAt
  exact congrArg (old (ix2 p q) + ·) (tile_sum (V m c main_v1) (V m c main_v6) (V m c main_v11) (V m c main_v16)
    (iblk m c 0 t) (iblk m c 1 t) (iblk m c 2 t) (iblk m c 3 t) (rowOf t p) (chanOf t) p q
    (fun k => x_block m c t p k) (fun j k => g_block m c t j k) (fun j k => u_block m c t j k) (fun j => d_block m c t q j))

/-- What the staged output block holds after each point: the running sum. -/
theorem outsAt_eq (c : Dev nD) : ∀ (n : ℕ) (hn : n < cfg0.N) (p : Fin 512) (q : Fin 4096),
    outsAt0 (F := Ideal) m c n hn (ix2 p q)
      = partialOut (term (V m c main_v1) (V m c main_v6) (V m c main_v11) (V m c main_v16) (rowOf ⟨n, hn⟩ p) q) n := by
  intro n
  induction n with
  | zero =>
    intro hn p q
    refine (congrFun (outsAt0_A m c ⟨0, hn⟩ rfl) (ix2 p q)).trans ?_
    refine (congrFun (out_A c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) (ms0_4 ⟨0, hn⟩) (hs0_4 ⟨0, hn⟩)
      ((hcond0_0 ⟨0, hn⟩).mpr rfl) (iblk m c 0 ⟨0, hn⟩) (iblk m c 1 ⟨0, hn⟩) (iblk m c 2 ⟨0, hn⟩) (iblk m c 3 ⟨0, hn⟩)) (ix2 p q)).trans ?_
    rw [step_at, fill_apply, partialOut_eq, sum_range_tile_of_eq_zero _ 256 (0 % 43) rfl]
    rfl
  | succ n ih =>
    intro hn p q
    have hN : n + 1 < 688 := lt_of_lt_of_eq hn (show cfg0.N = 688 from N_0)
    by_cases h0 : (n + 1) % 43 = 0
    · refine (congrFun (outsAt0_A m c ⟨n + 1, hn⟩ h0) (ix2 p q)).trans ?_
      refine (congrFun (out_A c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)) (ix2 p q)).trans ?_
      rw [step_at, fill_apply, partialOut_eq, sum_range_tile_of_eq_zero _ 256 ((n + 1) % 43) h0]
      rfl
    · refine (congrFun (outsAt0_B m c ⟨n + 1, hn⟩ h0) (ix2 p q)).trans ?_
      refine (congrFun (out_B c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩)
        (outsAt0 m c n (Nat.lt_of_succ_lt hn))) (ix2 p q)).trans ?_
      rw [step_at, ih (Nat.lt_of_succ_lt hn) p q, partialOut_eq _ (n + 1)]
      have hrow : rowOf ⟨n, Nat.lt_of_succ_lt hn⟩ p = rowOf ⟨n + 1, hn⟩ p := Fin.ext (by
        show 512 * (n / 43) + p.val = 512 * ((n + 1) / 43) + p.val
        have : n / 43 = (n + 1) / 43 := by omega
        rw [this])
      have htile : 256 * (n % 43 + 1) = 256 * ((n + 1) % 43) := by
        have : n % 43 + 1 = (n + 1) % 43 := by omega
        rw [this]
      rw [hrow]
      unfold partialOut
      rw [htile]
      rfl

/-- The result array: the output of the specification over the arrays as the region finds them. -/
def result (c : Dev nD) : S8192x4096.Idx → EReal :=
  out (V m c main_v1) (V m c main_v6) (V m c main_v11) (V m c main_v16)

/-- What the last point of a row writes back is its block of the result. -/
theorem flushed_eq (c : Dev nD) (t : Fin cfg0.N) (hf : (cfg0.win 4).flush t = true) :
    (dats m 0 c).flushed 4 t = ((cfg0.win 4).blk t).view.read (Elt Ideal) (result m c) := by
  have h42 : t.val % 43 = 42 := (flush0_4 t).mp hf
  show (cfg0.win 4).cut (grid0.coords t) ((dats m 0 c).after 4 t) = _
  rw [after0_4]
  funext j
  obtain ⟨p, q, rfl⟩ : ∃ (p : Fin 512) (q : Fin 4096), j = ix2 p q := ⟨j 0, j 1, eq_ix2 j⟩
  show outsAt0 m c t.val t.isLt (ix2 p q) = result m c (((cfg0.win 4).blk t).view.emb (ix2 p q))
  rw [outsAt_eq, o_block]
  unfold partialOut
  rw [h42]
  show ∑ i ∈ Finset.range 11008, padded _ i = outAt (V m c main_v1) (V m c main_v6) (V m c main_v11) (V m c main_v16) (rowOf t p) q
  rw [sum_range_padded]
  rfl

/-- So the result array ends holding the specification's output. -/
theorem final (c : Dev nD) : (dats m 0 c).arrAt 4 cfg0.N = result m c :=
  (dats m 0 c).arrAt_eq_of_cover 4 (result m c) (fun t hf => flushed_eq m c t hf) o_cover

end Cert.KernelIdeal.Acc

end
-- ==== Proof.Whole.lean ====
/-
  The same function over the unflattened activations [4, 2048, 4096]: the output at (b, s, h) is the sum over the
  channels i of  (Σₖ a[b,s,k]·GW[i,k]) * (Σₖ a[b,s,k]·UW[i,k]) * DW[h,i];  flattening the batch and sequence axes
  into rows r = 2048·b + s changes nothing but the name of the row.
-/
import proofs.«169609_j6665789243839_2_alg».proof.Proof.Spec

noncomputable section

namespace Cert.Mlp

open Idealize.ShloMosaic Idealize.ShloMosaic.ValueIdx

/-- The gated MLP over [4, 2048, 4096] activations. -/
def mlp (a : (⟨3, ![4, 2048, 4096]⟩ : Shape).Idx → EReal) (GW UW : (⟨2, ![11008, 4096]⟩ : Shape).Idx → EReal)
    (DW : (⟨2, ![4096, 11008]⟩ : Shape).Idx → EReal) : (⟨3, ![4, 2048, 4096]⟩ : Shape).Idx → EReal :=
  fun y => ∑ i : Fin 11008, (∑ k : Fin 4096, a (ix3 (y 0) (y 1) k) * GW (ix2 i k))
    * (∑ k : Fin 4096, a (ix3 (y 0) (y 1) k) * UW (ix2 i k)) * DW (ix2 (y 2) i)

/-- Row r = 2048·b + s of the flattened activations is position (b, s) of the unflattened ones. -/
theorem outAt_eq_mlp (a : (⟨3, ![4, 2048, 4096]⟩ : Shape).Idx → EReal) (X : (⟨2, ![8192, 4096]⟩ : Shape).Idx → EReal)
    (GW UW : (⟨2, ![11008, 4096]⟩ : Shape).Idx → EReal) (DW : (⟨2, ![4096, 11008]⟩ : Shape).Idx → EReal)
    (b : Fin 4) (s : Fin 2048) (h : Fin 4096) (r : Fin 8192) (hX : ∀ k : Fin 4096, X (ix2 r k) = a (ix3 b s k)) :
    outAt X GW UW DW r h = mlp a GW UW DW (ix3 b s h) := by
  unfold outAt mlp term
  refine Finset.sum_congr rfl fun i _ => ?_
  simp only [hX]

end Cert.Mlp

end
-- ==== Proof.KernelRun.lean ====
/-
  The kernel's program around its grid: before it the host flattens the activations to [8192, 4096] and dequantizes
  the three weight matrices (an int-to-float conversion times the per-row scale; the narrowings to bf16 are the
  identity on the extended reals); after it the host unflattens the [8192, 4096] result to [4, 2048, 4096].  So the
  program's result is the specification's function of the launch arrays.
-/
import proofs.«169609_j6665789243839_2_alg».proof.Proof.Accumulate
import proofs.«169609_j6665789243839_2_alg».proof.Proof.Whole
import Idealize.ShloMosaic.Lib.StableHlo.Run
import Idealize.ShloMosaic.Lib.Pipeline.Value

noncomputable section

namespace Cert.KernelIdeal.Whole

open Cert.KernelIdeal Cert.KernelIdeal.Gen Cert.KernelIdeal.Acc Cert.Mlp
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The dequantized gate weights, as the host computes them. -/
abbrev gateW (c : Dev nD) : S11008x4096.Idx → EReal :=
  mulf (sitofp (F := Ideal) .f32 (m ((c : Thread nD τ).loc main_arg1)))
    (broadcastInDim S11008x4096 ![0, 1] Facts₀.bcast_S11008x1_S11008x4096_0_1
      (broadcastInDim S11008x1 ![0] Facts₀.bcast_S11008_S11008x1_0 (m ((c : Thread nD τ).loc main_arg2))))
/-- The dequantized up weights. -/
abbrev upW (c : Dev nD) : S11008x4096.Idx → EReal :=
  mulf (sitofp (F := Ideal) .f32 (m ((c : Thread nD τ).loc main_arg3)))
    (broadcastInDim S11008x4096 ![0, 1] Facts₀.bcast_S11008x1_S11008x4096_0_1
      (broadcastInDim S11008x1 ![0] Facts₀.bcast_S11008_S11008x1_0 (m ((c : Thread nD τ).loc main_arg4))))
/-- The dequantized down weights. -/
abbrev downW (c : Dev nD) : S4096x11008.Idx → EReal :=
  mulf (sitofp (F := Ideal) .f32 (m ((c : Thread nD τ).loc main_arg5)))
    (broadcastInDim S4096x11008 ![0, 1] Facts₀.bcast_S4096x1_S4096x11008_0_1
      (broadcastInDim S4096x1 ![0] Facts₀.bcast_S4096_S4096x1_0 (m ((c : Thread nD τ).loc main_arg6))))

theorem V_x (c : Dev nD) : (V m c main_v1 : S8192x4096.Idx → EReal)
    = shapeCast S8192x4096 (m ((c : Thread nD τ).loc main_arg0)) Facts₀.shapeCasts_S4x2048x4096_S8192x4096 := by
  show StableHlo.after hostOps0 (fun b => m (c, b)) (Proc.devRef .tc main_v1) = _
  after_results
  rfl
theorem V_gate (c : Dev nD) : (V m c main_v6 : S11008x4096.Idx → EReal) = gateW m c := by
  show StableHlo.after hostOps0 (fun b => m (c, b)) (Proc.devRef .tc main_v6) = _
  after_results
  rfl
theorem V_up (c : Dev nD) : (V m c main_v11 : S11008x4096.Idx → EReal) = upW m c := by
  show StableHlo.after hostOps0 (fun b => m (c, b)) (Proc.devRef .tc main_v11) = _
  after_results
  rfl
theorem V_down (c : Dev nD) : (V m c main_v16 : S4096x11008.Idx → EReal) = downW m c := by
  show StableHlo.after hostOps0 (fun b => m (c, b)) (Proc.devRef .tc main_v16) = _
  after_results
  rfl

/-- Row r = 2048·b + s of the flattened activations. -/
theorem x_at (c : Dev nD) (b : Fin 4) (s : Fin 2048) (k : Fin 4096) (r : Fin 8192) (hr : r.val = 2048 * b.val + s.val) :
    (V m c main_v1 : S8192x4096.Idx → EReal) (ix2 r k) = m ((c : Thread nD τ).loc main_arg0) (ix3 b s k) := by
  rw [V_x]
  refine shapeCast_apply _ _ (ix2 r k) (ix3 b s k) ?_
  rw [Shape.rowMajor_val_three, Shape.rowMajor_val_two]
  show (b.val * 2048 + s.val) * 4096 + k.val = r.val * 4096 + k.val
  rw [hr]; omega

/-- The host line after the grid unflattens the result array. -/
theorem tail_eq (c : Dev nD) :
    Pipeline.afterTail₀ cfgs (dats m) 0 (V0 m) [hostOps1] c main_v18
      = shapeCast S4x2048x4096 ((dats m 0 c).arrAt 4 cfg0.N) Facts₀.shapeCasts_S8192x4096_S4x2048x4096 := by
  unfold Pipeline.afterTail₀
  show StableHlo.after hostOps1 _ (Proc.devRef .tc main_v18) = _
  after_results
  have e := Pipeline.withArrays_arr spec0 launch0.win.arr_inj c (V0 m c) (fun w => (dats m 0 c).arrAt w (cfgs 0).N) 4
  show (fun i => shapeCast S4x2048x4096 (Pipeline.withArrays spec0 c (V0 m c) (fun w => (dats m 0 c).arrAt w (cfgs 0).N)
      (Proc.devRef .tc (Pipeline.arrRef spec0 4))) Facts₀.shapeCasts_S8192x4096_S4x2048x4096 i) = _
  rw [e]

/-- The program's result array. -/
theorem result_eq (c : Dev nD) :
    Pipeline.afterTail₀ cfgs (dats m) 0 (V0 m) [hostOps1] c main_v18
      = mlp (m ((c : Thread nD τ).loc main_arg0)) (gateW m c) (upW m c) (downW m c) := by
  rw [tail_eq, Acc.final]
  funext y
  obtain ⟨b, s, h, rfl⟩ : ∃ (b : Fin 4) (s : Fin 2048) (h : Fin 4096), y = ix3 b s h := ⟨y 0, y 1, y 2, eq_ix3 y⟩
  have hr : 2048 * b.val + s.val < 8192 := by have := b.isLt; have := s.isLt; omega
  refine (shapeCast_apply _ _ (ix3 b s h) (ix2 (⟨2048 * b.val + s.val, hr⟩ : Fin 8192) h) ?_).trans ?_
  · rw [Shape.rowMajor_val_three, Shape.rowMajor_val_two]
    show (2048 * b.val + s.val) * 4096 + h.val = (b.val * 2048 + s.val) * 4096 + h.val
    omega
  · show outAt (V m c main_v1) (V m c main_v6) (V m c main_v11) (V m c main_v16) (⟨2048 * b.val + s.val, hr⟩ : Fin 8192) h = _
    rw [V_gate, V_up, V_down]
    exact outAt_eq_mlp _ _ _ _ _ b s h _ (fun k => x_at m c b s k _ rfl)

/-- The run, read: the result at the specification's function of the launch arrays, the arguments unchanged. -/
theorem run : θ_run defs (onTc (τ := τ) (main (F := Ideal))) ⟨m, fun _ => 0, ρ⟩ fun r => ∀ c : Dev nD,
      r.2.mem ((c : Thread nD τ).loc main_v18) = mlp (m ((c : Thread nD τ).loc main_arg0)) (gateW m c) (upW m c) (downW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v18 (Pipeline.mem_restRefs_of main_v18 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefValue.lean ====
/-
  The reference, read element by element: its three einsums are the three sums of the specification, over the
  weights as its own dequantization leaves them.
-/
import proofs.«169609_j6665789243839_2_alg».proof.Proof.Gen.ReferenceIdeal.Read
import proofs.«169609_j6665789243839_2_alg».proof.Proof.Whole

noncomputable section

namespace Cert.ReferenceIdeal.RefValue

open Cert.ReferenceIdeal Cert.ReferenceIdeal.Read Cert.Mlp Idealize.ShloMosaic Idealize.ShloMosaic.ValueIdx

theorem lidx15 (b : Fin 4) (s : Fin 2048) (h : Fin 4096) (i : Fin 11008) : lidx_main_v15 (ix3 b s h) i = ix3 b s i :=
  funext fun a => Fin.ext (by match a with | ⟨0, _⟩ => rfl | ⟨1, _⟩ => rfl | ⟨2, _⟩ => rfl)
theorem ridx15 (b : Fin 4) (s : Fin 2048) (h : Fin 4096) (i : Fin 11008) : ridx_main_v15 (ix3 b s h) i = ix2 h i :=
  funext fun a => Fin.ext (by match a with | ⟨0, _⟩ => rfl | ⟨1, _⟩ => rfl)
theorem lidx12 (b : Fin 4) (s : Fin 2048) (i : Fin 11008) (k : Fin 4096) : lidx_main_v12 (ix3 b s i) k = ix3 b s k :=
  funext fun a => Fin.ext (by match a with | ⟨0, _⟩ => rfl | ⟨1, _⟩ => rfl | ⟨2, _⟩ => rfl)
theorem ridx12 (b : Fin 4) (s : Fin 2048) (i : Fin 11008) (k : Fin 4096) : ridx_main_v12 (ix3 b s i) k = ix2 i k :=
  funext fun a => Fin.ext (by match a with | ⟨0, _⟩ => rfl | ⟨1, _⟩ => rfl)
theorem lidx13 (b : Fin 4) (s : Fin 2048) (i : Fin 11008) (k : Fin 4096) : lidx_main_v13 (ix3 b s i) k = ix3 b s k :=
  funext fun a => Fin.ext (by match a with | ⟨0, _⟩ => rfl | ⟨1, _⟩ => rfl | ⟨2, _⟩ => rfl)
theorem ridx13 (b : Fin 4) (s : Fin 2048) (i : Fin 11008) (k : Fin 4096) : ridx_main_v13 (ix3 b s i) k = ix2 i k :=
  funext fun a => Fin.ext (by match a with | ⟨0, _⟩ => rfl | ⟨1, _⟩ => rfl)

/-- The reference's result is the specification's function of the activations and the dequantized weights. -/
theorem result_eq (x0 : (⟨S4x2048x4096, .f32⟩ : BufTy).Contents (Elt Ideal)) (x1 : (⟨S11008x4096, .i32⟩ : BufTy).Contents (Elt Ideal))
    (x2 : (⟨S11008, .f32⟩ : BufTy).Contents (Elt Ideal)) (x3 : (⟨S11008x4096, .i32⟩ : BufTy).Contents (Elt Ideal))
    (x4 : (⟨S11008, .f32⟩ : BufTy).Contents (Elt Ideal)) (x5 : (⟨S4096x11008, .i32⟩ : BufTy).Contents (Elt Ideal))
    (x6 : (⟨S4096, .f32⟩ : BufTy).Contents (Elt Ideal)) :
    val_main_v15 (F := Ideal) x0 x1 x2 x3 x4 x5 x6
      = mlp x0 (val_main_v3 (F := Ideal) x1 x2) (val_main_v7 (F := Ideal) x3 x4) (val_main_v11 (F := Ideal) x5 x6) := by
  funext y
  obtain ⟨b, s, h, rfl⟩ : ∃ (b : Fin 4) (s : Fin 2048) (h : Fin 4096), y = ix3 b s h := ⟨y 0, y 1, y 2, eq_ix3 y⟩
  rw [val_main_v15_apply]
  show _ = ∑ i : Fin 11008, (∑ k : Fin 4096, x0 (ix3 b s k) * val_main_v3 (F := Ideal) x1 x2 (ix2 i k))
      * (∑ k : Fin 4096, x0 (ix3 b s k) * val_main_v7 (F := Ideal) x3 x4 (ix2 i k)) * val_main_v11 (F := Ideal) x5 x6 (ix2 h i)
  refine Finset.sum_congr rfl fun i _ => ?_
  rw [lidx15, ridx15, val_main_v14_apply, val_main_v12_apply, val_main_v13_apply]
  simp only [lidx12, ridx12, lidx13, ridx13]
  rfl

end Cert.ReferenceIdeal.RefValue

end
-- ==== Proof.lean ====
/-
  The claim: a fused, tiled, int8-dequantized gated MLP kernel against its jnp reference, over the extended reals.

  Both programs dequantize the three weight matrices the same way (an int-to-float conversion times the per-row
  scale) and compute  y[b,s,h] = Σᵢ (Σₖ x[b,s,k]·G[i,k]) · (Σₖ x[b,s,k]·U[i,k]) · D[h,i].  The reference does it with
  three whole einsums.  The kernel flattens (b, s) to 8192 rows, walks a 16 x 43 grid of (row block, tile of 256
  intermediate channels), and adds each tile's contribution to a resident [512, 4096] output block, zeroed at the
  first tile of a row block and written back after the last: a sum over 11008 channels taken 256 at a time.  Sums
  of extended reals commute and associate, the narrowings to bf16 are the identity, and a matrix product into a
  zero accumulator is the plain sum, so the two results are one function of the arguments; no finiteness is used.

  The three frames are the generated ones (the reference's is its generated run with the result dropped); the
  idealization rewrote nothing, so there is nothing to preserve.
-/
import proofs.«169609_j6665789243839_2_alg».proof.Defs
import proofs.«169609_j6665789243839_2_alg».proof.Proof.Gen.Kernel
import proofs.«169609_j6665789243839_2_alg».proof.Proof.Gen.Kernel.Frame
import proofs.«169609_j6665789243839_2_alg».proof.Proof.Gen.KernelIdeal
import proofs.«169609_j6665789243839_2_alg».proof.Proof.Gen.KernelIdeal.Frame
import proofs.«169609_j6665789243839_2_alg».proof.Proof.Gen.ReferenceIdeal
import proofs.«169609_j6665789243839_2_alg».proof.Proof.Gen.Pre_finite_inputs
import proofs.«169609_j6665789243839_2_alg».proof.Proof.Gen.ReferenceIdeal.Run
import proofs.«169609_j6665789243839_2_alg».proof.Proof.Gen.ReferenceIdeal.Read
import proofs.«169609_j6665789243839_2_alg».proof.Proof.KernelRun
import proofs.«169609_j6665789243839_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the kernel's program ends with its result at the specification's
    function of the arguments, and so does the reference: its dequantized weights are the kernel's, term for term. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0))
    (Cert.KernelIdeal.Whole.gateW m c) (Cert.KernelIdeal.Whole.upW m c) (Cert.KernelIdeal.Whole.downW m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
